-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x256 : Shape := ⟨2, ![10000, 256]⟩
abbrev S256x256 : Shape := ⟨2, ![256, 256]⟩
abbrev S256 : Shape := ⟨1, ![256]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x10000 .f32) (main_arg1 : FVec F S10000x256 .f32) (main_arg2 : FVec F S256x256 .f32) (main_arg3 : FVec F S256 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x10000 : Shape := ⟨2, ![10000, 10000]⟩
abbrev S10000x256 : Shape := ⟨2, ![10000, 256]⟩
abbrev S256x256 : Shape := ⟨2, ![256, 256]⟩
abbrev S256 : Shape := ⟨1, ![256]⟩
abbrev S1x256 : Shape := ⟨2, ![1, 256]⟩
abbrev S400x10000 : Shape := ⟨2, ![400, 10000]⟩
abbrev S400x256 : Shape := ⟨2, ![400, 256]⟩

abbrev nBuf : Space → Nat
  | .hbm => 6
  | .vmem => 8
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S256x256, .f32⟩
  | .local _ .vmem, ⟨4, _⟩ => ⟨S1x256, .f32⟩
  | .local _ .vmem, ⟨5, _⟩ => ⟨S400x256, .f32⟩
  | .local _ .vmem, ⟨6, _⟩ => ⟨S400x256, .f32⟩
  | .local _ .vmem, ⟨7, _⟩ => ⟨S10000x256, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  shapeCasts_S10000x256_S10000x256 : S10000x256.ShapeCasts S10000x256
  inb_S400x10000_S400x10000_0_0 : ∀ a, (![0, 0] : Fin 2 → Nat) a + S400x10000.size a ≤ S400x10000.size a
  h_S400x10000 : 0 < S400x10000.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x256_S400x256_0_0 : ∀ a, (![0, 0] : Fin 2 → Nat) a + S400x256.size a ≤ S400x256.size a
  h_S400x256 : 0 < S400x256.numel
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x256.size a ≤ S10000x256.size a
  hwx0_4 : ∀ i : grid0.Coords, EltTy.bits .f32 = 32 ∨ (Rect.block (s := S10000x256) S400x256.size (cc0_transform_4 i) (hinb0_4 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x256 : Shape := ⟨2, ![10000, 256]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S256x256, .f32⟩
  | .hbm, ⟨3, _⟩ => ⟨S256, .f32⟩
  | .hbm, ⟨4, _⟩ => ⟨S10000x256, .f32⟩
  | .hbm, ⟨5, _⟩ => ⟨S256x256, .f32⟩
  | .hbm, ⟨6, _⟩ => ⟨S10000x256, .f32⟩
  | .hbm, ⟨7, _⟩ => ⟨S1x256, .f32⟩
  | .hbm, ⟨8, _⟩ => ⟨S10000x256, .f32⟩
  | .hbm, ⟨9, _⟩ => ⟨S10000x256, .f32⟩
  | .hbm, ⟨10, _⟩ => ⟨S_, .f32⟩
  | .hbm, ⟨11, _⟩ => ⟨S10000x256, .f32⟩
  | .hbm, ⟨12, _⟩ => ⟨S10000x256, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x10000_S10000x256_S10000x256_1_0_0_1_n_n_wf : DotDims.WF S10000x10000 S10000x256 S10000x256 [1] [0] [0] [1] [] []
  dot_S10000x256_S256x256_S10000x256_1_0_0_1_n_n_wf : DotDims.WF S10000x256 S256x256 S10000x256 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.Pieces.lean ====
/-
  What one run of the kernel body leaves behind, as values.

  At the first grid point the body stores the product x · Wᵀ (the payload `k0_pay1` of the loaded x and W) into the
  carried scratch, reads it back, and stores relu (A_blk · scratch + b) into the output block; at every later point it
  leaves the scratch as it found it and stores relu (A_blk · scratch + b) of what the scratch held.
-/
import proofs.«124358_g4724464025767_cont_8to1c4_784_19_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- At the first point the scratch ends holding x · Wᵀ. -/
theorem scratch_first (c : Dev nD) (i : grid0.Coords) (a1 : Memref sig .tc .vmem S400x10000 .f32) (h1 : a1.IsWhole)
    (a2 : Memref sig .tc .vmem S10000x256 .f32) (h2 : a2.IsWhole) (a3 : Memref sig .tc .vmem S256x256 .f32) (h3 : a3.IsWhole)
    (a4 : Memref sig .tc .vmem S1x256 .f32) (h4 : a4.IsWhole) (a5 : Memref sig .tc .vmem S400x256 .f32) (h5 : a5.IsWhole)
    (a6 : Memref sig .tc .vmem S10000x256 .f32) (h6 : a6.IsWhole) (hc : cond0_0 i)
    (x0 : Vec F S400x10000 .f32) (x1 : Vec F S10000x256 .f32) (x2 : Vec F S256x256 .f32) (x3 : Vec F S1x256 .f32) :
    sout0_A_0 c i a1 h1 a2 h2 a3 h3 a4 h4 a5 h5 a6 h6 hc x0 x1 x2 x3 = k0_pay1 x1 x2 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz]
  simp only [View.readAt_eq_ld, h2.read_unread, h3.read_unread, View.ld_unit_zero (S := S10000x256) hz,
    View.ld_unit_zero (S := S256x256) hz]

/-- At the first point the output block ends holding relu (A_blk · (x · Wᵀ) + b). -/
theorem out_first (c : Dev nD) (i : grid0.Coords) (a1 : Memref sig .tc .vmem S400x10000 .f32) (h1 : a1.IsWhole)
    (a2 : Memref sig .tc .vmem S10000x256 .f32) (h2 : a2.IsWhole) (a3 : Memref sig .tc .vmem S256x256 .f32) (h3 : a3.IsWhole)
    (a4 : Memref sig .tc .vmem S1x256 .f32) (h4 : a4.IsWhole) (a5 : Memref sig .tc .vmem S400x256 .f32) (h5 : a5.IsWhole)
    (a6 : Memref sig .tc .vmem S10000x256 .f32) (h6 : a6.IsWhole) (hc : cond0_0 i)
    (x0 : Vec F S400x10000 .f32) (x1 : Vec F S10000x256 .f32) (x2 : Vec F S256x256 .f32) (x3 : Vec F S1x256 .f32) :
    out0_A_4 c i a1 h1 a2 h2 a3 h3 a4 h4 a5 h5 a6 h6 hc x0 x1 x2 x3 = k0_pay2 x0 (k0_pay1 x1 x2) x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S400x10000) hz, View.ld_unit_zero (S := S10000x256) hz, View.ld_unit_zero (S := S256x256) hz,
    View.ld_unit_zero (S := S1x256) hz, View.readCov_unit_zero (S := S10000x256) _ hz]

/-- At a later point the output block ends holding relu (A_blk · Y + b) of the scratch contents Y. -/
theorem out_later (c : Dev nD) (i : grid0.Coords) (a1 : Memref sig .tc .vmem S400x10000 .f32) (h1 : a1.IsWhole)
    (a2 : Memref sig .tc .vmem S10000x256 .f32) (h2 : a2.IsWhole) (a3 : Memref sig .tc .vmem S256x256 .f32) (h3 : a3.IsWhole)
    (a4 : Memref sig .tc .vmem S1x256 .f32) (h4 : a4.IsWhole) (a5 : Memref sig .tc .vmem S400x256 .f32) (h5 : a5.IsWhole)
    (a6 : Memref sig .tc .vmem S10000x256 .f32) (h6 : a6.IsWhole) (hc : ¬cond0_0 i)
    (x0 : Vec F S400x10000 .f32) (x1 : Vec F S10000x256 .f32) (x2 : Vec F S256x256 .f32) (x3 : Vec F S1x256 .f32)
    (xs : Vec F S10000x256 .f32) :
    out0_B_4 c i a1 h1 a2 h2 a3 h3 a4 h4 a5 h5 a6 h6 hc x0 x1 x2 x3 xs = k0_pay2 x0 xs x3 := by
  unfold out0_B_4
  rw [View.read_writes_eq_canon _ _ _ (cover0_B_4 c i a1 h1 a2 h2 a3 h3 a4 h4 a5 h5 a6 h6 hc x0 x1 x2 x3 xs)]
  unfold kernelRun0_B
  dsimp only
  rw [View.canon_unit_zero hz]
  simp only [View.readAt_eq_ld, h1.read_unread, h4.read_unread, h6.read_unread,
    View.ld_unit_zero (S := S400x10000) hz, View.ld_unit_zero (S := S10000x256) hz, View.ld_unit_zero (S := S1x256) hz]

end Cert.KernelIdeal.Pieces

end
-- ==== Proof.LibDenseRows.lean ====
import Idealize.ShloMosaic.PureOps.Ideal
import Idealize.ShloMosaic.PureOps.Ideal.Laws
import Idealize.ShloMosaic.Lib.ValueIdx
import Idealize.ShloMosaic.Lib.Pipeline.Value

/-!
# Rows of a dense layer, read entry by entry

General facts, at any extents, that a dense layer followed by a row-wise softmax meets:

* `col_cast_apply`: a length-`a` vector re-laid as a column `[a, 1]` has the vector's entry `r` at `(r, 0)`;
* `col_bcast_apply`: a column `[a, 1]` repeated along `b` columns has the column's entry `(r, 0)` at every `(r, c)`;
* `matmul_rows_apply`: the product of an `[a, k]` matrix and a `[k, b]` matrix accumulated into zero is, at `(r, c)`,
  the sum over `u < k` of `L (r, u) · R (u, c)` on the extended reals — for ANY dimension-numbers record whose operand
  indices have those coordinates (for a literal record each of the four facts is `fun _ _ => rfl`);
* `row_max_apply`, `row_sum_apply`: a maximum (from its starting value) and a sum along the columns of an `[a, b]`
  array, at row `r`, as a fold and a sum over the column index.
-/

noncomputable section

open scoped BigOperators

namespace Cert.DenseRows

open Idealize.ShloMosaic Idealize.ShloMosaic.ValueIdx

variable {α : Type}

/-- A vector re-laid as a column: entry `(r, 0)` of the column is entry `r` of the vector. -/
theorem col_cast_apply {a : ℕ} (v : (⟨1, ![a]⟩ : Shape).Idx → α) (h : (⟨1, ![a]⟩ : Shape).ShapeCasts ⟨2, ![a, 1]⟩)
    (r : Fin a) : shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column repeated along the columns: entry `(r, c)` is the column's entry `(r, 0)`. -/
theorem col_bcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A matrix product accumulated into zero, at `(r, c)`: the sum over the shared extent of the products of row `r` of the
    left factor and column `c` of the right one. -/
theorem matmul_rows_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (L : FVec Ideal ⟨2, ![a, k]⟩ φ₁) (R : FVec Ideal ⟨2, ![k, b]⟩ φ₂) (r : Fin a) (c : Fin b) :
    FloatOps.matmul D prec L R (constant ⟨2, ![a, b]⟩ .f32 0x00000000#32) (ix2 r c)
      = ∑ u : Fin k, L (ix2 r u) * R (ix2 u c) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 u c := by
    funext ax
    match ax with
    | ⟨0, _⟩ => exact Fin.ext ((hr0 _ _).trans (contrEquiv1_symm_val D k hr hs u))
    | ⟨1, _⟩ => exact Fin.ext (hr1 _ _)
  rw [hL, hR]

/-- The maximum along the columns of an `[a, b]` array at row `r`: the fold of `max` from the starting value over the
    column index. -/
theorem row_max_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (FloatOps.ofBits φ acc) (fun c => src (ix2 r c)) := by
  refine (Ideal.multiReduction_maximumf_single src acc h hφ hacc (ix1 r)).trans ?_
  refine congrArg (fun g => (Finset.univ : Finset (Fin b)).fold max (FloatOps.ofBits φ acc) g) (funext fun c => ?_)
  refine congrArg src (funext fun ax => ?_)
  match ax with
  | ⟨0, _⟩ => rfl
  | ⟨1, _⟩ => rfl

/-- The sum along the columns of an `[a, b]` array at row `r`: the sum over the column index. -/
theorem row_sum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => ?_)
  match ax with
  | ⟨0, _⟩ => rfl
  | ⟨1, _⟩ => rfl

end Cert.DenseRows

end
-- ==== Proof.Payload.lean ====
/-
  The kernel body's two stored values, read entry by entry on the extended reals.

  The value stored into the carried scratch is x · Wᵀ: the transpose of W, then a product accumulated into zero —
  entry (j, c) is Σ_k x(j, k) · W(c, k). The value stored into the output block is relu (A_blk · Y + b): a product of
  the block of 400 rows of A with the scratch contents Y accumulated into zero, plus the bias row repeated along the
  rows, then the maximum with zero — entry (r, c) is max (Σ_j A_blk(r, j) · Y(j, c) + b(0, c)) 0.
-/
import proofs.«124358_g4724464025767_cont_8to1c4_784_19_alg».proof.Proof.Gen.KernelIdeal.Skeleton
import proofs.«124358_g4724464025767_cont_8to1c4_784_19_alg».proof.Proof.LibDenseRows
import Idealize.ShloMosaic.Lib.Pipeline.Value
import Idealize.ShloMosaic.Lib.ValueIdx
import Idealize.ShloMosaic.PureOps.Ideal.Laws

noncomputable section

open scoped BigOperators

namespace Cert.KernelIdeal.Payload

open Idealize.ShloMosaic Idealize.ShloMosaic.ValueIdx
open Cert.KernelIdeal Cert.KernelIdeal.Gen

/-- The coordinates of the operand indices of the projection's product (row of the left factor, the contracted
    coordinate, column of the right factor). -/
theorem proj_l0 (j : S10000x256.Idx) (q : dot_S10000x256_S256x256_S10000x256_1_0_0_1_n_n.contr.Idx) :
    (dot_S10000x256_S256x256_S10000x256_1_0_0_1_n_n.lhsIdx j q 0).val = (j 0).val := by
  unfold DotDims.lhsIdx
  rw [dif_neg (show ¬(0 : Fin S10000x256.rank) ∈ dot_S10000x256_S256x256_S10000x256_1_0_0_1_n_n.lhsBatch by decide),
    dif_pos (show (0 : Fin S10000x256.rank) ∈ dot_S10000x256_S256x256_S10000x256_1_0_0_1_n_n.lhsNonContracting by decide)]
  rfl
theorem proj_r1 (j : S10000x256.Idx) (q : dot_S10000x256_S256x256_S10000x256_1_0_0_1_n_n.contr.Idx) :
    (dot_S10000x256_S256x256_S10000x256_1_0_0_1_n_n.rhsIdx j q 1).val = (j 1).val := by
  unfold DotDims.rhsIdx
  rw [dif_neg (show ¬(1 : Fin S256x256.rank) ∈ dot_S10000x256_S256x256_S10000x256_1_0_0_1_n_n.rhsBatch by decide),
    dif_pos (show (1 : Fin S256x256.rank) ∈ dot_S10000x256_S256x256_S10000x256_1_0_0_1_n_n.rhsNonContracting by decide)]
  rfl

/-- The same for the aggregation's product. -/
theorem agg_l0 (j : S400x256.Idx) (q : dot_S400x10000_S10000x256_S400x256_1_0_0_1_n_n.contr.Idx) :
    (dot_S400x10000_S10000x256_S400x256_1_0_0_1_n_n.lhsIdx j q 0).val = (j 0).val := by
  unfold DotDims.lhsIdx
  rw [dif_neg (show ¬(0 : Fin S400x10000.rank) ∈ dot_S400x10000_S10000x256_S400x256_1_0_0_1_n_n.lhsBatch by decide),
    dif_pos (show (0 : Fin S400x10000.rank) ∈ dot_S400x10000_S10000x256_S400x256_1_0_0_1_n_n.lhsNonContracting by decide)]
  rfl
theorem agg_r1 (j : S400x256.Idx) (q : dot_S400x10000_S10000x256_S400x256_1_0_0_1_n_n.contr.Idx) :
    (dot_S400x10000_S10000x256_S400x256_1_0_0_1_n_n.rhsIdx j q 1).val = (j 1).val := by
  unfold DotDims.rhsIdx
  rw [dif_neg (show ¬(1 : Fin S10000x256.rank) ∈ dot_S400x10000_S10000x256_S400x256_1_0_0_1_n_n.rhsBatch by decide),
    dif_pos (show (1 : Fin S10000x256.rank) ∈ dot_S400x10000_S10000x256_S400x256_1_0_0_1_n_n.rhsNonContracting by decide)]
  rfl

/-- The scratch's value x · Wᵀ at (j, c): Σ_k x(j, k) · W(c, k). -/
theorem projected_apply (x : Vec Ideal S10000x256 .f32) (w : Vec Ideal S256x256 .f32) (j : Fin 10000) (c : Fin 256) :
    k0_pay1 (F := Ideal) x w (ix2 j c) = ∑ k : Fin 256, x (ix2 j k) * w (ix2 c k) := by
  unfold k0_pay1
  refine (congrFun (shapeCast_self _ shapeCasts_S10000x256_S10000x256) (ix2 j c)).trans ?_
  refine (Cert.DenseRows.matmul_rows_apply dot_S10000x256_S256x256_S10000x256_1_0_0_1_n_n rfl rfl proj_l0
    (fun j q => dot_S10000x256_S256x256_S10000x256_1_0_0_1_n_n.lhsIdx_val_of_single rfl j q)
    (fun j q => dot_S10000x256_S256x256_S10000x256_1_0_0_1_n_n.rhsIdx_val_of_single rfl j q) proj_r1
    none x (transpose S256x256 [1, 0] w transposes_S256x256_p1_0_S256x256) j c).trans ?_
  refine Finset.sum_congr rfl fun k _ => congrArg (x (ix2 j k) * ·) ?_
  exact transpose_apply [1, 0] w transposes_S256x256_p1_0_S256x256 (ix2 k c) (ix2 c k) (fun b => match b with
    | ⟨0, _⟩ => rfl
    | ⟨1, _⟩ => rfl)

/-- The output block's value at (r, c): max (Σ_j A_blk(r, j) · Y(j, c) + b(0, c)) 0. -/
theorem activated_apply (a : Vec Ideal S400x10000 .f32) (y : Vec Ideal S10000x256 .f32) (b : Vec Ideal S1x256 .f32)
    (r : Fin 400) (c : Fin 256) :
    k0_pay2 (F := Ideal) a y b (ix2 r c)
      = max ((∑ j : Fin 10000, a (ix2 r j) * y (ix2 j c)) + b (ix2 (0 : Fin 1) c)) (Ideal.ofBits .f32 0x00000000#32) := by
  unfold k0_pay2
  show max (FloatOps.matmul (F := Ideal) dot_S400x10000_S10000x256_S400x256_1_0_0_1_n_n none a y (constant (F := Ideal) S400x256 .f32 0x00000000#32) (ix2 r c)
      + broadcastTo S400x256 (shapeCast S1x256 b shapeCasts_S1x256_S1x256) broadcasts_S1x256_S400x256 (ix2 r c))
    (Ideal.ofBits .f32 0x00000000#32) = _
  refine congrArg₂ (fun u v => max (u + v) (Ideal.ofBits .f32 0x00000000#32)) ?_ ?_
  · exact Cert.DenseRows.matmul_rows_apply dot_S400x10000_S10000x256_S400x256_1_0_0_1_n_n rfl rfl agg_l0
      (fun j q => dot_S400x10000_S10000x256_S400x256_1_0_0_1_n_n.lhsIdx_val_of_single rfl j q)
      (fun j q => dot_S400x10000_S10000x256_S400x256_1_0_0_1_n_n.rhsIdx_val_of_single rfl j q) agg_r1 none a y r c
  · refine (broadcastTo_apply _ broadcasts_S1x256_S400x256 (ix2 r c) (ix2 (0 : Fin 1) c) (fun ax => match ax with
      | ⟨0, _⟩ => rfl
      | ⟨1, _⟩ => rfl)).trans ?_
    exact congrFun (shapeCast_self b shapeCasts_S1x256_S1x256) _

end Cert.KernelIdeal.Payload

end
-- ==== Proof.Blocks.lean ====
/-
  What each window's block is, as entries of the argument arrays.

  The adjacency window's block at grid point t is rows 400·t … 400·t + 399 of A; the feature, weight and bias windows
  have ONE block, the whole array, at every point; the bias array the region finds is the bias vector re-laid as a
  row [1, 256] by the host; the output window's block at point t is rows 400·t … 400·t + 399 of the result.
-/
import proofs.«124358_g4724464025767_cont_8to1c4_784_19_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The printed index maps over the grid: the adjacency and output windows are at row block t, every other block index
    is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry (r, j) of the adjacency block at point t is A(400·t + r, j). -/
theorem adj_block (c : Dev nD) (t : Fin cfg0.N) (r : Fin 400) (j : Fin 10000) (hr : 400 * t.val + r.val < 10000) :
    iblk m c 0 t (ix2 r j) = m ((c : Thread nD τ).loc main_arg0) (ix2 ⟨400 * t.val + r.val, hr⟩ j) := by
  unfold iblk
  rw [View.read_apply]
  show V m c main_arg0 (((cfg0.win 0).blk t).view.emb (ix2 r j)) = _
  rw [V_main_arg0]
  refine congrArg _ (funext fun a => Fin.ext ?_)
  obtain ⟨e0, e1, -⟩ := index_facts t
  match a with
  | ⟨0, _⟩ => show win0_0.index t (0 : Fin 2) * 400 + 1 * r.val = 400 * t.val + r.val; omega
  | ⟨1, _⟩ => show win0_0.index t (1 : Fin 2) * 10000 + 1 * j.val = j.val; omega

/-- The feature block at every point is the whole feature array. -/
theorem feat_block (c : Dev nD) (t : Fin cfg0.N) :
    (iblk m c 1 t : Vec F S10000x256 .f32) = m ((c : Thread nD τ).loc main_arg1) := by
  funext y
  unfold iblk
  rw [View.read_apply]
  show V m c main_arg1 (((cfg0.win 1).blk t).view.emb y) = _
  rw [V_main_arg1]
  refine congrArg _ (funext fun a => Fin.ext ?_)
  obtain ⟨-, -, e0, e1, -⟩ := index_facts t
  match a with
  | ⟨0, _⟩ => show win0_1.index t (0 : Fin 2) * 10000 + 1 * (y 0).val = (y 0).val; omega
  | ⟨1, _⟩ => show win0_1.index t (1 : Fin 2) * 256 + 1 * (y 1).val = (y 1).val; omega

/-- The weight block at every point is the whole weight array. -/
theorem weight_block (c : Dev nD) (t : Fin cfg0.N) :
    (iblk m c 2 t : Vec F S256x256 .f32) = m ((c : Thread nD τ).loc main_arg2) := by
  funext y
  unfold iblk
  rw [View.read_apply]
  show V m c main_arg2 (((cfg0.win 2).blk t).view.emb y) = _
  rw [V_main_arg2]
  refine congrArg _ (funext fun a => Fin.ext ?_)
  obtain ⟨-, -, -, -, e0, e1, -⟩ := index_facts t
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- The row the region finds in the bias window's array is the bias vector re-laid as [1, 256]. -/
theorem bias_row (c : Dev nD) :
    (V m c main_v0 : S1x256.Idx → Elt F .f32)
      = shapeCast S1x256 (m ((c : Thread nD τ).loc main_arg3)) shapeCasts_S256_S1x256 := by
  dsimp only [V, hostOps0]
  after_results
  rfl

/-- Entry (0, cc) of the bias block at every point is b(cc). -/
theorem bias_block (c : Dev nD) (t : Fin cfg0.N) (cc : Fin 256) :
    iblk m c 3 t (ix2 (0 : Fin 1) cc) = m ((c : Thread nD τ).loc main_arg3) (ix1 cc) := by
  unfold iblk
  rw [View.read_apply]
  show V m c main_v0 (((cfg0.win 3).blk t).view.emb (ix2 (0 : Fin 1) cc)) = _
  rw [bias_row]
  refine shapeCast_apply _ shapeCasts_S256_S1x256 _ (ix1 cc) ?_
  rw [Shape.rowMajor_val_one, Shape.rowMajor_val_two]
  obtain ⟨-, -, -, -, -, -, e0, e1, -⟩ := index_facts t
  show cc.val = (win0_3.index t (0 : Fin 2) * 1 + 1 * 0) * 256 + (win0_3.index t (1 : Fin 2) * 256 + 1 * cc.val)
  omega

/-- The output block at point t sits at rows 400·t … of the result: its entry (r, cc) is the array's
    (400·t + r, cc). -/
theorem out_emb (t : Fin cfg0.N) (r : Fin 400) (cc : Fin 256) (hr : 400 * t.val + r.val < 10000) :
    ((cfg0.win 4).blk t).view.emb (ix2 r cc) = ix2 ⟨400 * t.val + r.val, hr⟩ cc := by
  refine funext fun a => Fin.ext ?_
  obtain ⟨-, -, -, -, -, -, -, -, e0, e1⟩ := index_facts t
  match a with
  | ⟨0, _⟩ => show win0_4.index t (0 : Fin 2) * 400 + 1 * r.val = 400 * t.val + r.val; omega
  | ⟨1, _⟩ => show win0_4.index t (1 : Fin 2) * 256 + 1 * cc.val = cc.val; omega

end Cert.KernelIdeal.Blocks

end
-- ==== Proof.LibProductAssoc.lean ====
/-
  Reassociating a product of three matrices, entry by entry.

  Over the real numbers, for finite index sets,
      Σ_j a j · (Σ_k x j k · w k) = Σ_k (Σ_j a j · x j k) · w k
  (distribute both ways, exchange the two sums, reassociate each product). The same equation holds on the extended
  reals for REAL entries, because the coercion ℝ → EReal commutes with finite sums and with products; it fails at
  infinite entries, where a product does not distribute over a sum.
-/
import Mathlib

open scoped BigOperators

namespace Cert.Assoc

/-- Σ_j a j · (Σ_k x j k · w k) = Σ_k (Σ_j a j · x j k) · w k over the reals. -/
theorem sum_mul_sum_assoc {J K : Type*} [Fintype J] [Fintype K] (a : J → ℝ) (x : J → K → ℝ) (w : K → ℝ) :
    ∑ j, a j * ∑ k, x j k * w k = ∑ k, (∑ j, a j * x j k) * w k := by
  simp only [Finset.mul_sum, Finset.sum_mul]
  rw [Finset.sum_comm]
  refine Finset.sum_congr rfl fun k _ => Finset.sum_congr rfl fun j _ => ?_
  ring

/-- The coercion of the reals into the extended reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same law on the extended reals, for real entries. -/
theorem ereal_sum_mul_sum_assoc {J K : Type*} [Fintype J] [Fintype K] (a : J → ℝ) (x : J → K → ℝ) (w : K → ℝ) :
    ∑ j, (a j : EReal) * ∑ k, (x j k : EReal) * (w k : EReal)
      = ∑ k, (∑ j, (a j : EReal) * (x j k : EReal)) * (w k : EReal) := by
  have hl : ∀ j, (a j : EReal) * ∑ k, (x j k : EReal) * (w k : EReal) = ((a j * ∑ k, x j k * w k : ℝ) : EReal) := fun j => by
    rw [EReal.coe_mul, coe_sum]
    refine congrArg _ (Finset.sum_congr rfl fun k _ => ?_)
    rw [EReal.coe_mul]
  have hr : ∀ k, (∑ j, (a j : EReal) * (x j k : EReal)) * (w k : EReal) = (((∑ j, a j * x j k) * w k : ℝ) : EReal) := fun k => by
    rw [EReal.coe_mul, coe_sum]
    refine congrArg (· * (w k : EReal)) (Finset.sum_congr rfl fun j _ => ?_)
    rw [EReal.coe_mul]
  rw [Finset.sum_congr rfl fun j _ => hl j, Finset.sum_congr rfl fun k _ => hr k, ← coe_sum, ← coe_sum,
    sum_mul_sum_assoc]

end Cert.Assoc
-- ==== Proof.Layer.lean ====
/-
  The layer this certificate is about, as one function of its four arguments, index by index, on the extended reals.

  With A the adjacency [10000, 10000], x the features [10000, 256], W the weights [256, 256] (stored as
  [out, in]) and b the bias [256], entry (r, c) of the result is
      relu (Σ_j A(r, j) · (Σ_k x(j, k) · W(c, k)) + b(c))      — project the features first, then aggregate —
  or
      relu (Σ_k (Σ_j A(r, j) · x(j, k)) · W(c, k) + b(c))      — aggregate first, then project.
  The two agree when every entry of A, x and W is a real number (`Cert.Assoc.ereal_sum_mul_sum_assoc`).
-/
import Idealize.ShloMosaic.PureOps.Ideal
import Idealize.ShloMosaic.Lib.ValueIdx
import proofs.«124358_g4724464025767_cont_8to1c4_784_19_alg».proof.Proof.LibProductAssoc

noncomputable section

open scoped BigOperators

namespace Cert.Layer

open Idealize.ShloMosaic Idealize.ShloMosaic.ValueIdx

abbrev SA : Shape := ⟨2, ![10000, 10000]⟩
abbrev SX : Shape := ⟨2, ![10000, 256]⟩
abbrev SW : Shape := ⟨2, ![256, 256]⟩
abbrev SB : Shape := ⟨1, ![256]⟩

/-- The projected features x · Wᵀ: entry (j, c) is Σ_k x(j, k) · W(c, k). -/
def proj (X : SX.Idx → EReal) (W : SW.Idx → EReal) : SX.Idx → EReal :=
  fun i => ∑ k : Fin 256, X (ix2 (i 0) k) * W (ix2 (i 1) k)

/-- relu (A · (x · Wᵀ) + b). -/
def projectThenAggregate (A : SA.Idx → EReal) (X : SX.Idx → EReal) (W : SW.Idx → EReal) (b : SB.Idx → EReal) :
    SX.Idx → EReal :=
  fun i => max ((∑ j : Fin 10000, A (ix2 (i 0) j) * proj X W (ix2 j (i 1))) + b (ix1 (i 1)))
    (Ideal.ofBits .f32 0x00000000#32)

/-- relu ((A · x) · Wᵀ + b). -/
def aggregateThenProject (A : SA.Idx → EReal) (X : SX.Idx → EReal) (W : SW.Idx → EReal) (b : SB.Idx → EReal) :
    SX.Idx → EReal :=
  fun i => max ((∑ k : Fin 256, (∑ j : Fin 10000, A (ix2 (i 0) j) * X (ix2 j k)) * W (ix2 (i 1) k)) + b (ix1 (i 1)))
    (Ideal.ofBits .f32 0x00000000#32)

/-- For real A, x and W the two orders of the two matrix products give the same layer. -/
theorem reassociate (A : SA.Idx → EReal) (X : SX.Idx → EReal) (W : SW.Idx → EReal) (b : SB.Idx → EReal)
    (hA : ∀ i, ∃ r : ℝ, A i = r) (hX : ∀ i, ∃ r : ℝ, X i = r) (hW : ∀ i, ∃ r : ℝ, W i = r) :
    projectThenAggregate A X W b = aggregateThenProject A X W b := by
  choose a ha using hA
  choose x hx using hX
  choose w hw using hW
  funext i
  unfold projectThenAggregate aggregateThenProject proj
  simp only [ha, hx, hw]
  rw [Cert.Assoc.ereal_sum_mul_sum_assoc (fun j : Fin 10000 => a (ix2 (i 0) j)) (fun (j : Fin 10000) (k : Fin 256) => x (ix2 j k))
    (fun k : Fin 256 => w (ix2 (i 1) k))]

end Cert.Layer

end
-- ==== Proof.KernelSide.lean ====
/-
  What the kernel's result array holds after the run, on the extended reals: the project-then-aggregate layer.

  The carried scratch holds x · Wᵀ after the first grid point and is never stored into again, so it holds x · Wᵀ after
  EVERY point (induction on the point). Hence at every point t the output block is relu (A_blk(t) · (x · Wᵀ) + b), which
  is rows 400·t … 400·t + 399 of `Cert.Layer.projectThenAggregate A x W b`; the 25 blocks tile the 10000 rows (row i is
  in block i / 400), so the whole result array is that layer.
-/
import proofs.«124358_g4724464025767_cont_8to1c4_784_19_alg».proof.Proof.Gen.KernelIdeal.Value
import proofs.«124358_g4724464025767_cont_8to1c4_784_19_alg».proof.Proof.Pieces
import proofs.«124358_g4724464025767_cont_8to1c4_784_19_alg».proof.Proof.Payload
import proofs.«124358_g4724464025767_cont_8to1c4_784_19_alg».proof.Proof.Blocks
import proofs.«124358_g4724464025767_cont_8to1c4_784_19_alg».proof.Proof.Layer

noncomputable section

open scoped BigOperators

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen

section AnyInstance

variable {F : FTy → Type} [FloatOps F]
variable (m : (ℓ : Loc nD τ sig) → Buf (Elt F) ℓ)

/-- The projected features x · Wᵀ, as the body computes them from the whole feature and weight arrays. -/
abbrev projected (c : Dev nD) : Vec F S10000x256 .f32 :=
  k0_pay1 (m ((c : Thread nD τ).loc main_arg1)) (m ((c : Thread nD τ).loc main_arg2))

/-- After every grid point the carried scratch holds x · Wᵀ: stored at the first point, kept at the others. -/
theorem scratch_eq (c : Dev nD) : ∀ (n : ℕ) (hn : n < cfg0.N), (outsAt0 m c n hn).2 = projected m c
  | 0, hn => by
    rw [outsAt0_A m c ⟨0, hn⟩ rfl]
    dsimp only
    refine (Pieces.scratch_first (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole cc0_scratch0) ((hcond0_0 ⟨0, hn⟩).mpr rfl) (iblk m c 0 ⟨0, hn⟩) (iblk m c 1 ⟨0, hn⟩) (iblk m c 2 ⟨0, hn⟩) (iblk m c 3 ⟨0, hn⟩)).trans ?_
    exact congrArg₂ k0_pay1 (Blocks.feat_block m c ⟨0, hn⟩) (Blocks.weight_block m c ⟨0, hn⟩)
  | n + 1, hn => by
    have hN : cfg0.N = 25 := N_0
    have hB : ¬(⟨n + 1, hn⟩ : Fin cfg0.N).val % 25 = 0 := by dsimp only; omega
    rw [outsAt0_B m c ⟨n + 1, hn⟩ hB]
    dsimp only [sout0_B_0]
    exact scratch_eq c n _

/-- After grid point t the output's staging buffer holds relu (A_blk(t) · (x · Wᵀ) + b). -/
theorem out_eq (c : Dev nD) (t : Fin cfg0.N) :
    (outsAt0 m c t.val t.isLt).1 = k0_pay2 (iblk m c 0 t) (projected m c) (iblk m c 3 t) := by
  by_cases h0 : t.val % 25 = 0
  · rw [outsAt0_A m c t h0]
    dsimp only
    refine (Pieces.out_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h0) (iblk m c 0 t) (iblk m c 1 t) (iblk m c 2 t) (iblk m c 3 t)).trans ?_
    exact congrArg (fun y => k0_pay2 (iblk m c 0 t) y (iblk m c 3 t))
      (congrArg₂ k0_pay1 (Blocks.feat_block m c t) (Blocks.weight_block m c t))
  · rw [outsAt0_B m c t h0]
    dsimp only
    refine (Pieces.out_later (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2).trans ?_
    exact congrArg (fun y => k0_pay2 (iblk m c 0 t) y (iblk m c 3 t)) (scratch_eq m c _ _)

end AnyInstance

section AtIdeal

variable (m : (ℓ : Loc nD τ sig) → Buf (Elt Ideal) ℓ) (ρ : Dev nD → PrngReg)

/-- The layer of the four argument arrays as launched. -/
abbrev layer (c : Dev nD) : Buf (Elt Ideal) ((c : Thread nD τ).loc main_v1) :=
  Cert.Layer.projectThenAggregate (m ((c : Thread nD τ).loc main_arg0)) (m ((c : Thread nD τ).loc main_arg1))
    (m ((c : Thread nD τ).loc main_arg2)) (m ((c : Thread nD τ).loc main_arg3))

/-- What point t writes back is block t of the layer. -/
theorem flushed_eq (c : Dev nD) (t : Fin cfg0.N) :
    (dats m 0 c).flushed 4 t = ((cfg0.win 4).blk t).view.read (Elt Ideal) (layer m c) := by
  rw [Value.flushed4, out_eq]
  funext y
  obtain ⟨r, cc, rfl⟩ : ∃ (r : Fin 400) (cc : Fin 256), y = ix2 r cc := ⟨y 0, y 1, eq_ix2 y⟩
  have hN : t.val < 25 := lt_of_lt_of_eq t.isLt N_0
  have hr : 400 * t.val + r.val < 10000 := by have := r.isLt; omega
  show k0_pay2 (F := Ideal) (iblk m c 0 t) (projected m c) (iblk m c 3 t) (ix2 r cc)
    = layer m c (((cfg0.win 4).blk t).view.emb (ix2 r cc))
  rw [Blocks.out_emb t r cc hr]
  refine (Payload.activated_apply (iblk m c 0 t) (projected m c) (iblk m c 3 t) r cc).trans ?_
  refine congrArg₂ (fun u v => max (u + v) (Ideal.ofBits .f32 0x00000000#32))
    (Finset.sum_congr rfl fun j _ => congrArg₂ (· * ·) (Blocks.adj_block m c t r j hr) ?_) (Blocks.bias_block m c t cc)
  exact Payload.projected_apply _ _ j cc

/-- An index of the result is in point t's block iff each coordinate is in the block's range on its axis. -/
theorem mem_blk (t : Fin cfg0.N) (i : S10000x256.Idx) :
    i ∈ ((cfg0.win 4).blk t).view.set ↔ ∀ a : Fin 2, win0_4.index t a * S400x256.size a ≤ (i a).val
      ∧ (i a).val < win0_4.index t a * S400x256.size a + S400x256.size a := by
  show i ∈ ((View.whole main_v1).slice (win0_4.rect t)).set ↔ _
  rw [View.set_slice_whole, Rect.mem_set_unit]
  exact Iff.rfl

/-- Every index of the result is in some point's block: row i is in block i / 400. -/
theorem covered (i : S10000x256.Idx) :
    ∃ t : Fin cfg0.N, (cfg0.win 4).flush t = true ∧ i ∈ ((cfg0.win 4).blk t).view.set := by
  have hi0 : (i 0).val < 10000 := (i 0).isLt
  have hi1 : (i 1).val < 256 := (i 1).isLt
  have hN : cfg0.N = 25 := N_0
  have hq : (i 0).val / 400 < cfg0.N := by omega
  refine ⟨⟨(i 0).val / 400, hq⟩, flush0_4 _, ?_⟩
  rw [mem_blk]
  obtain ⟨-, -, -, -, -, -, -, -, e0, e1⟩ := Blocks.index_facts ⟨(i 0).val / 400, hq⟩
  intro a
  match a with
  | ⟨0, _⟩ =>
    show win0_4.index ⟨(i 0).val / 400, hq⟩ (0 : Fin 2) * 400 ≤ (i 0).val
      ∧ (i 0).val < win0_4.index ⟨(i 0).val / 400, hq⟩ (0 : Fin 2) * 400 + 400
    rw [e0]; dsimp only; omega
  | ⟨1, _⟩ =>
    show win0_4.index ⟨(i 0).val / 400, hq⟩ (1 : Fin 2) * 256 ≤ (i 1).val
      ∧ (i 1).val < win0_4.index ⟨(i 0).val / 400, hq⟩ (1 : Fin 2) * 256 + 256
    rw [e1]; omega

/-- The result array after the run is the layer. -/
theorem final (c : Dev nD) : (dats m 0 c).arrAt 4 cfg0.N = layer m c :=
  (dats m 0 c).arrAt_eq_of_cover 4 (layer m c) (fun t _ => flushed_eq m c t) covered

/-- The kernel's run: the result array at the layer of the arguments, the arguments unchanged. -/
theorem run : θ_run defs (onTc (τ := τ) (main (F := Ideal))) ⟨m, fun _ => 0, ρ⟩ fun r => ∀ c : Dev nD,
      r.2.mem ((c : Thread nD τ).loc main_v1) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end AtIdeal

end Cert.KernelIdeal.Result

end
-- ==== Proof.RefSide.lean ====
/-
  The reference, read entry by entry on the extended reals: it aggregates first and projects second.

  Its result at (r, c) is max ((Σ_k (Σ_j A(r, j) · x(j, k)) · Wᵀ(k, c)) + b(c)) 0, the transpose read as W(c, k), the
  bias broadcast first to a row and then along the rows — the layer `Cert.Layer.aggregateThenProject`.
-/
import proofs.«124358_g4724464025767_cont_8to1c4_784_19_alg».proof.Proof.Gen.ReferenceIdeal.Read
import proofs.«124358_g4724464025767_cont_8to1c4_784_19_alg».proof.Proof.Layer

noncomputable section

open scoped BigOperators

namespace Cert.ReferenceIdeal.RefValue

open Idealize.ShloMosaic Idealize.ShloMosaic.ValueIdx
open Cert.ReferenceIdeal Cert.ReferenceIdeal.Read

/-- The reference's result is the aggregate-then-project layer of its four arguments. -/
theorem reference_eq (A : (⟨S10000x10000, .f32⟩ : BufTy).Contents (Elt Ideal)) (X : (⟨S10000x256, .f32⟩ : BufTy).Contents (Elt Ideal))
    (W : (⟨S256x256, .f32⟩ : BufTy).Contents (Elt Ideal)) (b : (⟨S256, .f32⟩ : BufTy).Contents (Elt Ideal)) :
    val_main_v6 (F := Ideal) A X W b = Cert.Layer.aggregateThenProject A X W b := by
  funext i
  have eA : ∀ (k : Fin 256) (j : Fin 10000), lidx_main_v0 (lidx_main_v2 i k) j = ix2 (i 0) j := fun k j =>
    funext fun a => Fin.ext (by match a with | ⟨0, _⟩ => rfl | ⟨1, _⟩ => rfl)
  have eX : ∀ (k : Fin 256) (j : Fin 10000), ridx_main_v0 (lidx_main_v2 i k) j = ix2 j k := fun k j =>
    funext fun a => Fin.ext (by match a with | ⟨0, _⟩ => rfl | ⟨1, _⟩ => rfl)
  have eW : ∀ k : Fin 256, idx_main_v1 (ridx_main_v2 i k) = ix2 (i 1) k := fun k =>
    funext fun a => Fin.ext (by match a with | ⟨0, _⟩ => rfl | ⟨1, _⟩ => rfl)
  have eb : idx_main_v3 (idx_main_v4 i) = ix1 (i 1) :=
    funext fun a => Fin.ext (by match a with | ⟨0, _⟩ => rfl)
  rw [val_main_v6_apply, val_main_v5_apply, val_main_v2_apply, val_main_v4_apply, val_main_v3_apply,
    val_main_call0_v0_apply, val_main_call0_cst_apply]
  simp only [val_main_v0_apply, val_main_v1_apply, eA, eX, eW, eb]
  rfl

end Cert.ReferenceIdeal.RefValue

end
-- ==== Proof.Finite.lean ====
/-
  What the precondition says, entry by entry: every entry of the four arguments is a real number.

  The precondition is the conjunction of four "all entries satisfy |v| < +∞" tests. On the extended reals
  |v| = max v (-v), and max v (-v) < ⊤ rules out both v = ⊤ and v = ⊥, so v is (the coercion of) a real number.
-/
import proofs.«124358_g4724464025767_cont_8to1c4_784_19_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic

/-- The word 0x7F800000 denotes +∞. -/
theorem inf_word : Ideal.ofBits .f32 0x7F800000#32 = ⊤ := by
  simp [Ideal.ofBits, Ideal.ieee]

/-- An extended real whose absolute value is below +∞ is a real number. -/
theorem real_of_abs_lt_top (v : EReal) (h : Ideal.cmp .olt (max v (-v)) (Ideal.ofBits .f32 0x7F800000#32) = 1#1) :
    ∃ r : ℝ, v = r := by
  rw [inf_word] at h
  have hlt : max v (-v) < ⊤ := by
    by_contra hn
    simp [Ideal.cmp, hn] at h
  induction v using EReal.rec with
  | bot => simp at hlt
  | coe r => exact ⟨r, rfl⟩
  | top => simp at hlt

instance : Subsingleton Cert.Pre_finite_inputs.S_.Idx := ⟨fun a b => funext fun d => d.elim0⟩

variable [Cert.Pre_finite_inputs.Facts]

/-- Under the precondition every entry of every argument is a real number. -/
theorem real_entries (A : FVec Ideal Cert.Pre_finite_inputs.S10000x10000 .f32) (X : FVec Ideal Cert.Pre_finite_inputs.S10000x256 .f32)
    (W : FVec Ideal Cert.Pre_finite_inputs.S256x256 .f32) (b : FVec Ideal Cert.Pre_finite_inputs.S256 .f32)
    (h : Cert.Pre_finite_inputs.fn (F := Ideal) A X W b = fun _ => 1#1) :
    (∀ i, ∃ r : ℝ, A i = r) ∧ (∀ i, ∃ r : ℝ, X i = r) ∧ (∀ i, ∃ r : ℝ, W i = r) ∧ (∀ i, ∃ r : ℝ, b i = r) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_abs_lt_top _ (Host.reduce_andi_all _ _ _ _ _ h1 i)
  · exact real_of_abs_lt_top _ (Host.reduce_andi_all _ _ _ _ _ h2 i)
  · exact real_of_abs_lt_top _ (Host.reduce_andi_all _ _ _ _ _ h3 i)
  · exact real_of_abs_lt_top _ (Host.reduce_andi_all _ _ _ _ _ h4 i)

end Cert.Finite

end
-- ==== Proof.lean ====
/-
  The graph layer relu ((A · x) · Wᵀ + b), computed by a kernel that reassociates it to relu (A · (x · Wᵀ) + b).

  The kernel walks the 10000 rows of the adjacency A in 25 blocks of 400 rows. At the first block it computes the
  projected features Y = x · Wᵀ once into a scratch buffer that it keeps for the whole walk; at every block it writes
  relu (A_blk · Y + b) to the matching 400 rows of the result. The reference computes (A · x) first and projects second.

  On the extended reals a matrix product is a finite sum of products, and the two orders agree because
      Σ_j A(r, j) · (Σ_k x(j, k) · W(c, k)) = Σ_k (Σ_j A(r, j) · x(j, k)) · W(c, k)
  for REAL entries (distribute, exchange the sums, reassociate: `Cert.Assoc`). That is where the precondition is used:
  it says every entry of every argument is finite, hence a real number (`Cert.Finite`). The bias and the final maximum
  with zero are the same on both sides.

  The three frames are the generated ones (the reference's is its run with the result dropped); the kernel's
  idealization rewrote nothing, so `preserves` is trivial.
-/
import proofs.«124358_g4724464025767_cont_8to1c4_784_19_alg».proof.Defs
import proofs.«124358_g4724464025767_cont_8to1c4_784_19_alg».proof.Proof.Gen.Kernel
import proofs.«124358_g4724464025767_cont_8to1c4_784_19_alg».proof.Proof.Gen.Kernel.Skeleton
import proofs.«124358_g4724464025767_cont_8to1c4_784_19_alg».proof.Proof.Gen.Kernel.Launch
import proofs.«124358_g4724464025767_cont_8to1c4_784_19_alg».proof.Proof.Gen.Kernel.Points
import proofs.«124358_g4724464025767_cont_8to1c4_784_19_alg».proof.Proof.Gen.Kernel.Frame
import proofs.«124358_g4724464025767_cont_8to1c4_784_19_alg».proof.Proof.Gen.KernelIdeal
import proofs.«124358_g4724464025767_cont_8to1c4_784_19_alg».proof.Proof.Gen.KernelIdeal.Skeleton
import proofs.«124358_g4724464025767_cont_8to1c4_784_19_alg».proof.Proof.Gen.KernelIdeal.Launch
import proofs.«124358_g4724464025767_cont_8to1c4_784_19_alg».proof.Proof.Gen.KernelIdeal.Points
import proofs.«124358_g4724464025767_cont_8to1c4_784_19_alg».proof.Proof.Gen.KernelIdeal.Frame
import proofs.«124358_g4724464025767_cont_8to1c4_784_19_alg».proof.Proof.Gen.ReferenceIdeal
import proofs.«124358_g4724464025767_cont_8to1c4_784_19_alg».proof.Proof.Gen.Pre_finite_inputs
import proofs.«124358_g4724464025767_cont_8to1c4_784_19_alg».proof.Proof.Gen.KernelIdeal.Value
import proofs.«124358_g4724464025767_cont_8to1c4_784_19_alg».proof.Proof.Gen.ReferenceIdeal.Run
import proofs.«124358_g4724464025767_cont_8to1c4_784_19_alg».proof.Proof.Gen.ReferenceIdeal.Read
import proofs.«124358_g4724464025767_cont_8to1c4_784_19_alg».proof.Proof.KernelSide
import proofs.«124358_g4724464025767_cont_8to1c4_784_19_alg».proof.Proof.RefSide
import proofs.«124358_g4724464025767_cont_8to1c4_784_19_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel's result array ends at relu (A · (x · Wᵀ) + b) and the reference's at
    relu ((A · x) · Wᵀ + b) of arguments that agree and whose entries are real: one array. -/
theorem algebraic : Cert.algebraic_KernelIdeal_ReferenceIdeal := by
  intro m ρ m' ρ' hpre hagree
  refine ⟨fun c => Cert.KernelIdeal.Result.layer m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_eq, (hagree c).1, (hagree c).2.1,
    (hagree c).2.2.1, (hagree c).2.2.2]
  obtain ⟨hA, hX, hW, -⟩ := Cert.Finite.real_entries _ _ _ _ (hpre c)
  exact (Cert.Layer.reassociate _ _ _ _ hA hX hW).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
